-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x64 : Shape := ⟨4, ![2, 8, 2048, 64]⟩
abbrev S_ : Shape := ⟨0, ![]⟩

class Facts : Prop where
  bcast_S_S2x8x2048x64 : S_.BroadcastsInDim S2x8x2048x64 (![] : Fin 0 → Fin S2x8x2048x64.rank)
  reducesTo_S2x8x2048x64_S_d0_1_2_3 : S2x8x2048x64.ReducesTo [0, 1, 2, 3] S_
  h_S_ : 0 < S_.numel

variable [Facts]

def fn {F : FTy → Type} [FloatOps F] (main_arg0 : FVec F S2x8x2048x64 .f32) (main_arg1 : FVec F S2x8x2048x64 .f32) : IVec S_ 1 :=
  let main_v0 : FVec F S2x8x2048x64 .f32 := Host.absf main_arg0
  let main_cst : FVec F S_ .f32 := constant S_ .f32 0x7F800000#32
  let main_v1 : FVec F S2x8x2048x64 .f32 := broadcastInDim S2x8x2048x64 ![] bcast_S_S2x8x2048x64 main_cst
  let main_v2 : IVec S2x8x2048x64 1 := cmpf .olt main_v0 main_v1
  let main_c : IVec S_ 1 := constantI S_ 1 1#1
  let main_v3 : IVec S_ 1 := (fun x v => Host.reduce IntOp.andi x v reducesTo_S2x8x2048x64_S_d0_1_2_3 h_S_) main_v2 main_c
  let main_v4 : FVec F S2x8x2048x64 .f32 := Host.absf main_arg1
  let main_cst_0 : FVec F S_ .f32 := constant S_ .f32 0x7F800000#32
  let main_v5 : FVec F S2x8x2048x64 .f32 := broadcastInDim S2x8x2048x64 ![] bcast_S_S2x8x2048x64 main_cst_0
  let main_v6 : IVec S2x8x2048x64 1 := cmpf .olt main_v4 main_v5
  let main_c_1 : IVec S_ 1 := constantI S_ 1 1#1
  let main_v7 : IVec S_ 1 := (fun x v => Host.reduce IntOp.andi x v reducesTo_S2x8x2048x64_S_d0_1_2_3 h_S_) main_v6 main_c_1
  let main_v8 : IVec S_ 1 := andi main_v3 main_v7
  main_v8
-- ==== Kernel.lean ====
abbrev S2x8x2048x64 : Shape := ⟨4, ![2, 8, 2048, 64]⟩
abbrev S16x2048x64 : Shape := ⟨3, ![16, 2048, 64]⟩
abbrev S1x256x64 : Shape := ⟨3, ![1, 256, 64]⟩
abbrev S1x2048x64 : Shape := ⟨3, ![1, 2048, 64]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S2048x1 : Shape := ⟨2, ![2048, 1]⟩
abbrev S1x2048 : Shape := ⟨2, ![1, 2048]⟩

abbrev nBuf : Space → Nat
  | .hbm => 6
  | .vmem => 8
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S16x2048x64, .f32⟩
  | .hbm, ⟨3, _⟩ => ⟨S16x2048x64, .f32⟩
  | .hbm, ⟨4, _⟩ => ⟨S16x2048x64, .f32⟩
  | .hbm, ⟨5, _⟩ => ⟨S2x8x2048x64, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x64, .f32⟩
  | .local _ .vmem, ⟨7, _⟩ => ⟨S1x256x64, .f32⟩
  | _, _ => ⟨S2x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x8x2048x64_S16x2048x64 : S2x8x2048x64.ShapeCasts S16x2048x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  reduces_S256x64_S256 : S256x64.Reduces [1] S256
  shapeCasts_S256_S256x1 : S256.ShapeCasts S256x1
  reduces_S2048x64_S2048 : S2048x64.Reduces [1] S2048
  shapeCasts_S2048_S2048x1 : S2048.ShapeCasts S2048x1
  transposes_S2048x1_p1_0_S1x2048 : S2048x1.Transposes [1, 0] S1x2048
  broadcasts_S256x1_S256x2048 : S256x1.Broadcasts S256x2048
  broadcasts_S1x2048_S256x2048 : S1x2048.Broadcasts S256x2048
  shapeCasts_S256x64_S1x256x64 : S256x64.ShapeCasts S1x256x64
  shapeCasts_S16x2048x64_S2x8x2048x64 : S16x2048x64.ShapeCasts S2x8x2048x64
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S16x2048x64.size a
  hwx0_0 : ∀ i : grid0.Coords, EltTy.bits .f32 = 32 ∨ (Rect.block (s := S16x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S16x2048x64.size a
  hwx0_3 : ∀ i : grid0.Coords, EltTy.bits .f32 = 32 ∨ (Rect.block (s := S16x2048x64) S1x256x64.size (cc0_transform_3 i) (hinb0_3 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x8x2048x64 : Shape := ⟨4, ![2, 8, 2048, 64]⟩
abbrev S_ : Shape := ⟨0, ![]⟩
abbrev S2x8x2048 : Shape := ⟨3, ![2, 8, 2048]⟩
abbrev S2x8x2048x2048 : Shape := ⟨4, ![2, 8, 2048, 2048]⟩
abbrev S2x8x2048x1 : Shape := ⟨4, ![2, 8, 2048, 1]⟩
abbrev S2x8x1x2048 : Shape := ⟨4, ![2, 8, 1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S_, .f32⟩
  | .hbm, ⟨4, _⟩ => ⟨S2x8x2048, .f32⟩
  | .hbm, ⟨5, _⟩ => ⟨S2x8x2048x2048, .f32⟩
  | .hbm, ⟨6, _⟩ => ⟨S2x8x2048x1, .f32⟩
  | .hbm, ⟨7, _⟩ => ⟨S2x8x1x2048, .f32⟩
  | .hbm, ⟨8, _⟩ => ⟨S2x8x2048x2048, .f32⟩
  | .hbm, ⟨9, _⟩ => ⟨S2x8x2048x2048, .f32⟩
  | .hbm, ⟨10, _⟩ => ⟨S2x8x2048x2048, .f32⟩
  | .hbm, ⟨11, _⟩ => ⟨S_, .f32⟩
  | .hbm, ⟨12, _⟩ => ⟨S2x8x2048x2048, .f32⟩
  | .hbm, ⟨13, _⟩ => ⟨S2x8x2048x2048, .f32⟩
  | .hbm, ⟨14, _⟩ => ⟨S2x8x2048x2048, .f32⟩
  | .hbm, ⟨15, _⟩ => ⟨S_, .f32⟩
  | .hbm, ⟨16, _⟩ => ⟨S2x8x2048x2048, .f32⟩
  | .hbm, ⟨17, _⟩ => ⟨S2x8x2048x2048, .f32⟩
  | .hbm, ⟨18, _⟩ => ⟨S2x8x2048x2048, .f32⟩
  | .hbm, ⟨19, _⟩ => ⟨S2x8x2048x64, .f32⟩
  | _, _ => ⟨S2x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  reducesTo_S2x8x2048x64_S2x8x2048_d3 : S2x8x2048x64.ReducesTo [3] S2x8x2048
  h_S_ : 0 < S_.numel
  bcast_S2x8x2048_S2x8x2048x1_0_1_2 : S2x8x2048.BroadcastsInDim S2x8x2048x1 (![0, 1, 2] : Fin 3 → Fin S2x8x2048x1.rank)
  bcast_S2x8x2048_S2x8x1x2048_0_1_3 : S2x8x2048.BroadcastsInDim S2x8x1x2048 (![0, 1, 3] : Fin 3 → Fin S2x8x1x2048.rank)
  bcast_S2x8x2048x1_S2x8x2048x2048_0_1_2_3 : S2x8x2048x1.BroadcastsInDim S2x8x2048x2048 (![0, 1, 2, 3] : Fin 4 → Fin S2x8x2048x2048.rank)
  bcast_S2x8x1x2048_S2x8x2048x2048_0_1_2_3 : S2x8x1x2048.BroadcastsInDim S2x8x2048x2048 (![0, 1, 2, 3] : Fin 4 → Fin S2x8x2048x2048.rank)
  bcast_S_S2x8x2048x2048 : S_.BroadcastsInDim S2x8x2048x2048 (![] : Fin 0 → Fin S2x8x2048x2048.rank)
  dot_S2x8x2048x64_S2x8x2048x64_S2x8x2048x2048_3_3_2_2_01_01_wf : DotDims.WF S2x8x2048x64 S2x8x2048x64 S2x8x2048x2048 [3] [3] [2] [2] [0, 1] [0, 1]
  dot_S2x8x2048x2048_S2x8x2048x64_S2x8x2048x64_3_2_2_3_01_01_wf : DotDims.WF S2x8x2048x2048 S2x8x2048x64 S2x8x2048x64 [3] [2] [2] [3] [0, 1] [0, 1]

variable [Facts₀]

def dot_S2x8x2048x64_S2x8x2048x64_S2x8x2048x2048_3_3_2_2_01_01 : DotDims S2x8x2048x64 S2x8x2048x64 S2x8x2048x2048 where
  lhsContracting := [3]
  rhsContracting := [3]
  lhsNonContracting := [2]
  rhsNonContracting := [2]
  lhsBatch := [0, 1]
  rhsBatch := [0, 1]
  wf := dot_S2x8x2048x64_S2x8x2048x64_S2x8x2048x2048_3_3_2_2_01_01_wf
def dot_S2x8x2048x2048_S2x8x2048x64_S2x8x2048x64_3_2_2_3_01_01 : DotDims S2x8x2048x2048 S2x8x2048x64 S2x8x2048x64 where
  lhsContracting := [3]
  rhsContracting := [2]
  lhsNonContracting := [2]
  rhsNonContracting := [3]
  lhsBatch := [0, 1]
  rhsBatch := [0, 1]
  wf := dot_S2x8x2048x2048_S2x8x2048x64_S2x8x2048x64_3_2_2_3_01_01_wf

class Facts : Prop extends Facts₀ where

variable [Facts]
-- ==== Proof.AttnBodyBits.lean ====
/-
  The attention kernel's body at one grid point, as a triple.

  At a point the body is handed four whole staging buffers: a tile of 256 query rows, all 2048 key rows of the head, all
  2048 value rows of the head, and the output tile. It loads the first three whole, computes, reads the output tile (a value
  it never uses) and overwrites the output tile whole with one store. So whatever the output tile held before, afterwards it
  holds the body's arithmetic `k0_pay1` of the three loaded blocks, and the three inputs are as they were.
-/
import proofs.«150626_j15702400434263_1_alg».proof.Proof.Gen.Kernel.Launch
import proofs.«150626_j15702400434263_1_alg».proof.Proof.Gen.Kernel.Skeleton
import proofs.«150626_j15702400434263_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole query / output tile, and the whole key / value block, as rectangles. -/
abbrev rTile : Rect S1x256x64 := Rect.unit (s := S1x256x64) ![0, 0, 0] S1x256x64.size inb_S1x256x64_S1x256x64_0_0_0
abbrev rRows : Rect S1x2048x64 := Rect.unit (s := S1x2048x64) ![0, 0, 0] S1x2048x64.size inb_S1x2048x64_S1x2048x64_0_0_0

/-- What the body leaves in the output tile, from the three input blocks: its one store, of the body's arithmetic. -/
def tileOut (x0 : Vec F S1x256x64 .f32) (x1 x2 : Vec F S1x2048x64 .f32) : Vec F S1x256x64 .f32 :=
  View.canon [⟨rTile, k0_pay1 (View.ld x0 rTile) (View.ld x1 rRows) (View.ld x2 rRows)⟩]

/-- The one store covers the tile. -/
theorem tile_cover (p0 : Vec F S1x256x64 .f32) (y : S1x256x64.Idx) :
    ∃ pc ∈ ([⟨rTile, p0⟩] : List (View.Piece (Elt F) S1x256x64 .f32)), y ∈ pc.1.set :=
  View.cover_of_tiled [⟨rTile, p0⟩] S1x256x64.size (by rfl) y

set_option maxHeartbeats 1000000 in
/-- The body on whole staging memrefs, the inputs at contents `x0 x1 x2` and the output tile at anything, runs to the
    continuation holding the inputs as they were and the output tile at `tileOut x0 x1 x2`. -/
theorem sound_kernel (c : Dev nD) (E : Set ℕ) (i : grid0.Coords)
    (arg2 : Memref sig .tc .vmem S1x256x64 .f32) (harg2 : arg2.IsWhole) (arg3 : Memref sig .tc .vmem S1x2048x64 .f32) (harg3 : arg3.IsWhole)
    (arg4 : Memref sig .tc .vmem S1x2048x64 .f32) (harg4 : arg4.IsWhole) (arg5 : Memref sig .tc .vmem S1x256x64 .f32) (harg5 : arg5.IsWhole)
    (x0 : Vec F S1x256x64 .f32) (x1 x2 : Vec F S1x2048x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (tileOut x0 x1 x2)) -∗ K ⟨⟩))
      ⊢ wp frame (wpE (defs₀ (F := F)) Variants.none c none) E (cc0__attn_kernel i arg2 harg2 arg3 harg3 arg4 harg4 arg5 harg5) K := by
  simp only [cc0__attn_kernel_eq_skeleton]; unfold cc0__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tile_cover _)

end Cert.Kernel.Hand

end
-- ==== Proof.AttnRunBits.lean ====
/-
  The attention kernel's run: @main is two reshapes (batch × head merged into 16 heads, for the queries and for the values),
  ONE kernel region over a 16 × 8 grid, and a reshape of the result back.

  The region has four windows: a tile of 256 query rows (head bh, tile qi), ALL 2048 rows of the same array as keys (head bh),
  all 2048 value rows (head bh), and the output tile (head bh, tile qi). The query tile and the key block are windows on ONE
  array — the merged queries — so the array's points-to is split in two halves between them for the region's duration and
  joined again at its exit. Every tile of the output is written back exactly once; the inputs are only read.
-/
import proofs.«150626_j15702400434263_1_alg».proof.Proof.AttnBodyBits
import Idealize.ShloMosaic.Lib.Pipeline.Regions
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main before the region: the two reshapes -/

/-- Core `c`'s buffers at launch, as a valuation; -/
abbrev V₀ (c : Dev nD) : Valuation τ sig (Elt F) := fun b => m ((c : Dev nD), b)
/-- and when the region is entered: the two reshapes have run. -/
abbrev V1 (c : Dev nD) : Valuation τ sig (Elt F) := StableHlo.after hostOps0 (V₀ m c)
abbrev V (c : Dev nD) (b : Ref sig .tc) : Buf (Elt F) ((c : Thread nD τ).loc b) := V1 m c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The pipeline's proof data -/

/-- The proof data on core `c`: the arrays as the region finds them; after the body at point `t` each input's buffer at its
    block and the output's at the body's arithmetic of the three input blocks; the invariant the scoped rest and the
    generator register, untouched; nothing owed; the merged queries' array held in two halves, one per window on it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tileOut (iblk m c 0 t) (iblk m c 1 t) (iblk m c 2 t)
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = tileOut (iblk m c 0 t) (iblk m c 1 t) (iblk m c 2 t) := by dsimp only [dats]

/-- Each input's current staging buffer holds its block at every point, fetched there or not: unfetched, the block index
    has not moved since the point that fetched it. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, the output's anything; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.AttnLaunchBits.lean ====
/-
  The attention kernel's launch: @main as three segments — the two reshapes, the region, the reshape of the result — and the
  run that follows: every weakly fair execution terminates, nothing faults, the two argument arrays end as they were, and the
  result array holds the reshape of what the region's write-backs left.

  The one thing particular to this kernel is at the region's two ends. The merged queries' array is the array of TWO windows
  (the query tile and the key block). At the entry its points-to is split into the two halves of the full share, one per
  window; both windows only read, so at the exit both halves still hold the entry contents and join back into the whole.
-/
import proofs.«150626_j15702400434263_1_alg».proof.Proof.AttnRunBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole of the certificate's. -/
abbrev EP : Emb (UR sig nD τ) (MT nD τ sig Unit (Elt F) ℕ (UR sig nD τ) ℕ) := emb₁

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-- The launch element: the pipeline library's at the staging cells. -/
def u₀ : UR sig nD τ := initOf (Pipeline.cells cfgs cellOf_inj) (Pipeline.launchToks cfgs cellOf_inj)

/-- What rides beside the buffers through the host operations: what the core owes (nothing) and its generator register. -/
abbrev R (c : Dev nD) : sProp 𝕄 :=
  iprop((∃ W, owes (c : Thread nD τ) (0 : CellTallies nD τ sig Unit) W) ∗ ∃ r, prngReg c r)

/-! ## The pipeline's arrays, window by window -/

/-- The proof data's arrays at contents `G`: the merged queries' array in two halves, the merged values' array and the
    result array whole. -/
theorem arrays_eq4 (c : Dev nD) (G : (w : Fin cfg0.W) → Buf (Elt F) ((cfg0.win w).arr.view.loc (c : Thread nD τ))) :
    ((dats m 0 c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2) ∗ (((c : Thread nD τ).loc main_v2) ↦{fullShare} G 3)) := by
  unfold Dat.arrays
  rw [bigSep_W0]
  rw [(arr_whole0 0).set_eq_univ, (arr_whole0 2).set_eq_univ, (arr_whole0 3).set_eq_univ]
  rfl

/-- The distinct buffers behind the windows' arrays, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1)
          ∗ (((c : Thread nD τ).loc main_v2) ↦{fullShare} W main_v2)) := by
  unfold Pipeline.arrBufs
  exact bigSep_eq_bigSepL_of_eq [main_v0, main_v1, main_v2] (by decide) (by decide) _

/-- A core's unscoped buffers, one by one: the three arrays the windows stage, and the three that bypass the region. -/
theorem unscoped_split (c : Dev nD) (W : (b : Ref sig .tc) → Buf (Elt F) ((c : Thread nD τ).loc b)) :
    (unscopedBufs c W : sProp 𝕄)
      = iprop(((((c : Thread nD τ).loc main_v0) ↦{fullShare} W main_v0) ∗ (((c : Thread nD τ).loc main_v1) ↦{fullShare} W main_v1)
            ∗ (((c : Thread nD τ).loc main_v2) ↦{fullShare} W main_v2))
          ∗ ((((c : Thread nD τ).loc main_arg0) ↦{fullShare} W main_arg0) ∗ (((c : Thread nD τ).loc main_arg1) ↦{fullShare} W main_arg1)
            ∗ (((c : Thread nD τ).loc main_v3) ↦{fullShare} W main_v3))) := by
  rw [Pipeline.unscopedBufs_split₀ cfgs 0 winFacts₀0.arr_unscoped c W]
  show iprop(Pipeline.arrBufs spec0 c W ∗ Pipeline.unscopedRest spec0 c W) = _
  rw [arrBufs_eq, unscopedRest0_eq]

/-! ## The segments -/

/-- THE FIRST HOST SEGMENT: the two reshapes over the unscoped buffers. -/
def seg0 : Pipeline.HostSeg (Name := ℕ) (U := UR sig nD τ) (pcfgs (F := F)) defs₀ Variants.none L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- The result array over merged heads, as the region's write-backs leave it. -/
def outArr (c : Dev nD) : Buf (Elt F) ((c : Thread nD τ).loc main_v2) := (dats m 0 c).arrAt 3 cfg0.N

/-- Core `c`'s buffers when the region is left: the result array written, every other buffer as the region found it. -/
def V2 (c : Dev nD) : Valuation τ sig (Elt F) := Function.update (V1 m c) (Proc.devRef .tc main_v2) (outArr m c)

theorem V2_v2 (c : Dev nD) : V2 m c (Proc.devRef .tc main_v2) = outArr m c := by
  unfold V2; exact Function.update_self _ _ _
theorem V2_v3 (c : Dev nD) : V2 m c (Proc.devRef .tc main_v3) = V1 m c (Proc.devRef .tc main_v3) := by
  unfold V2; exact Function.update_of_ne (by decide) _ _

/-- The two buffers the last reshape touches. -/
abbrev S23 : Finset (DevRef τ sig) := {Proc.devRef .tc main_v2, Proc.devRef .tc main_v3}

/-- Those two held at a valuation, one by one. -/
theorem held23 (c : Dev nD) (W : Valuation τ sig (Elt F)) :
    (StableHlo.held (c : Thread nD τ) S23 W : sProp 𝕄)
      = iprop((((c : Thread nD τ).1, Proc.devRef .tc main_v2) ↦{fullShare} W (Proc.devRef .tc main_v2))
          ∗ (((c : Thread nD τ).1, Proc.devRef .tc main_v3) ↦{fullShare} W (Proc.devRef .tc main_v3))) := by
  show bigSep ({Proc.devRef .tc main_v2, Proc.devRef .tc main_v3} : Finset (DevRef τ sig)) _ = _
  rw [bigSep_insert (by rw [Finset.mem_singleton]; exact StableHlo.devRef_ne_of_ne (by decide)), bigSep_singleton]
  rfl

/-- What rides beside them through the last reshape: the two argument arrays, as the region found them, and `R`. -/
abbrev R' (c : Dev nD) : sProp 𝕄 :=
  iprop((((c : Thread nD τ).loc main_arg0) ↦{fullShare} V m c main_arg0) ∗ (((c : Thread nD τ).loc main_arg1) ↦{fullShare} V m c main_arg1) ∗ R c)

/-- THE LAST HOST SEGMENT: the reshape of the result back to batch × head. -/
def seg1 : Pipeline.HostSeg (Name := ℕ) (U := UR sig nD τ) (pcfgs (F := F)) defs₀ Variants.none L lv :=
  Pipeline.HostSeg.ofOps _ _ _ _ _ S23 hostOps1
    (by intro op h; (repeat (cases h with | head => exact Finset.Subset.refl _ | tail _ h => ?_)); exact nomatch h)
    (by intro _ h; (repeat (cases h with | head => rfl | tail _ h => ?_)); exact nomatch h) (V2 m) (R' m)

set_option backward.isDefEq.respectTransparency.types false in
/-- THE REGION: entered from what the reshapes left — the windows' arrays into the pipeline, the merged queries' array in two
    halves; the generator register into the invariant; the argument arrays and the final result's buffer bypassing —, left
    with the result array written and the halves joined. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) S23 (V2 m c) ∗ R' m c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [show StableHlo.held (c : Thread nD τ) (Pipeline.ucRefs τ sig) (V1 m c) = unscopedBufs c (V m c) from (Pipeline.unscopedBufs_held c _).symm,
      unscoped_split, arrays_eq4, unscopedRest0_eq]
    iintro ⟨⟨⟨⟨H0, H1, H2⟩, Hrest⟩, HO, Hp⟩, -, -⟩
    ihave H0 := (pointsTo_share (PosShare.mem_left_op_right fullShare)).1 $$ H0
    icases H0 with ⟨H0l, H0r⟩
    imodintro
    isplitl [H0l H0r H1 H2]
    · isplitl [H0l]; · iexact H0l
      isplitl [H0r]; · iexact H0r
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr] <;> iassumption
  hout c := by
    rw [Pipeline.ownSems0_none, show (dats m 0 c).Φ (Fin.last cfg0.N) = Pipeline.ΦA spec0 c from rfl]; unfold Pipeline.ΦA
    iintro ⟨Hr, Hp⟩
    isplitl [Hp]; · iexact Hp
    isplitr; · iempintro
    iexact Hr
  hexit c := by
    rw [arrays_eq4, unscopedRest0_eq]
    rw [(dats m 0 c).arrAt_in 0 rfl, (dats m 0 c).arrAt_in 1 rfl]
    iintro ⟨⟨H0l, H0r, H1, H2⟩, HO, Hp, ⟨Ha0, Ha1, Ha3⟩⟩
    imodintro
    isplitl [H2 Ha3]
    · rw [held23]
      isplitl [H2]
      · rw [V2_v2]; iexact H2
      · rw [V2_v3]; iexact Ha3
    isplitl [Ha0]; · iexact Ha0
    isplitl [Ha1]; · iexact Ha1
    isplitl [HO]
    · unfold Pipeline.Dat.owesAt Pipeline.owesWithin
      icases HO with ⟨%W, -, HO⟩; iexists W; iexact HO
    iexact Hp

/-- @main as the list of the three. -/
abbrev segs : List (Pipeline.Seg (pcfgs (F := F)) adm (dats m) () defs₀ Variants.none L lv) :=
  [.host (seg0 m), .region (reg0 m), .host (seg1 m)]

/-- Core `c`'s buffers at the end: the last reshape has run. -/
abbrev V3 (c : Dev nD) : Valuation τ sig (Elt F) := StableHlo.after hostOps1 (V2 m c)

/-- What is left at the end: the result's two buffers after the last reshape, the two argument arrays, the register. -/
abbrev Tₙ (c : Dev nD) : sProp 𝕄 :=
  iprop(StableHlo.held (c : Thread nD τ) S23 (V3 m c)
    ∗ (((c : Thread nD τ).loc main_arg0) ↦{fullShare} V m c main_arg0) ∗ (((c : Thread nD τ).loc main_arg1) ↦{fullShare} V m c main_arg1))

/-- The physical post: the two argument arrays as the region found them, the final result at the last reshape's value. -/
def QC : PUnit × MemSt nD τ sig (Elt F) → Prop := fun r =>
  ∀ c : Dev nD, r.2.mem ((c : Thread nD τ).loc main_v3) = V3 m c (Proc.devRef .tc main_v3)
    ∧ r.2.mem ((c : Thread nD τ).loc main_arg0) = V m c main_arg0
    ∧ r.2.mem ((c : Thread nD τ).loc main_arg1) = V m c main_arg1

set_option backward.isDefEq.respectTransparency.types false in
/-- At the compiled mesh, for any float values, from any memory with zero counters: every weakly fair execution of @main on
    the TensorCores terminates, and every final state satisfies `QC`. -/
theorem run_main : θ_run defs (onTc (τ := τ) (main (F := F))) (s₀ m ρ) (QC m) :=
  Pipeline.θ_run_regions_kit (pcfgs (F := F)) adm (dats m) () cellOf_inj EP defs₀ Variants.none L lv m ρ main (segs m)
    (fun c Q => by rw [main_segs adm (dats m) () Variants.none L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop(StableHlo.held (c : Thread nD τ) S23 (V3 m c) ∗ R' m c) ⊢ iprop(Tₙ m c ∗ ∃ W, owes (c : Thread nD τ) (0 : CellTallies nD τ sig Unit) W)
      iintro ⟨Hh, Ha0, Ha1, ⟨HO, -⟩⟩
      isplitr [HO]
      · isplitl [Hh]; · iexact Hh
        isplitl [Ha0] <;> iassumption
      · iexact HO⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hp, -⟩, -⟩
      imodintro
      isplitl [Hh]; · iexact Hh
      isplitl [HO]; · iexists ∅; iexact HO
      iexists _; iexact Hp)
    (QY := fun c s => s.mem ((c : Thread nD τ).loc main_v3) = V3 m c (Proc.devRef .tc main_v3)
      ∧ s.mem ((c : Thread nD τ).loc main_arg0) = V m c main_arg0
      ∧ s.mem ((c : Thread nD τ).loc main_arg1) = V m c main_arg1)
    (hfin := fun c s' => by
      dsimp only [Tₙ]
      rw [held23]
      iintro ⟨⟨⟨-, H3⟩, H0, H1⟩, HSI⟩
      icombine HSI H3 gives %h3
      icombine HSI H0 gives %h0
      icombine HSI H1 gives %h1
      imodintro
      isplitr
      · ipureintro; exact ⟨Buf.eq_of_forall_mem_univ h3, Buf.eq_of_forall_mem_univ h0, Buf.eq_of_forall_mem_univ h1⟩
      iexact HSI)
    (hQ := fun _ h => h)

/-! ## The argument arrays are never written -/

/-- Neither reshape before the region writes an argument array: the region finds both as launched. -/
theorem V_arg0 (c : Dev nD) : V m c main_arg0 = m ((c : Thread nD τ).loc main_arg0) := by
  show StableHlo.after hostOps0 (V₀ m c) (Proc.devRef .tc main_arg0) = _
  after_results
theorem V_arg1 (c : Dev nD) : V m c main_arg1 = m ((c : Thread nD τ).loc main_arg1) := by
  show StableHlo.after hostOps0 (V₀ m c) (Proc.devRef .tc main_arg1) = _
  after_results

/-- THE FRAME: every weakly fair execution terminates, nothing faults, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).2.1.trans (V_arg0 m c), (h c).2.2.trans (V_arg1 m c)⟩) (run_main m ρ)

end Cert.Kernel.Hand

end
-- ==== Proof.AttnBodyIdeal.lean ====
/-
  The attention kernel's body at one grid point, as a triple.

  At a point the body is handed four whole staging buffers: a tile of 256 query rows, all 2048 key rows of the head, all
  2048 value rows of the head, and the output tile. It loads the first three whole, computes, reads the output tile (a value
  it never uses) and overwrites the output tile whole with one store. So whatever the output tile held before, afterwards it
  holds the body's arithmetic `k0_pay1` of the three loaded blocks, and the three inputs are as they were.
-/
import proofs.«150626_j15702400434263_1_alg».proof.Proof.Gen.KernelIdeal.Launch
import proofs.«150626_j15702400434263_1_alg».proof.Proof.Gen.KernelIdeal.Skeleton
import proofs.«150626_j15702400434263_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole query / output tile, and the whole key / value block, as rectangles. -/
abbrev rTile : Rect S1x256x64 := Rect.unit (s := S1x256x64) ![0, 0, 0] S1x256x64.size inb_S1x256x64_S1x256x64_0_0_0
abbrev rRows : Rect S1x2048x64 := Rect.unit (s := S1x2048x64) ![0, 0, 0] S1x2048x64.size inb_S1x2048x64_S1x2048x64_0_0_0

/-- What the body leaves in the output tile, from the three input blocks: its one store, of the body's arithmetic. -/
def tileOut (x0 : Vec F S1x256x64 .f32) (x1 x2 : Vec F S1x2048x64 .f32) : Vec F S1x256x64 .f32 :=
  View.canon [⟨rTile, k0_pay1 (View.ld x0 rTile) (View.ld x1 rRows) (View.ld x2 rRows)⟩]

/-- The one store covers the tile. -/
theorem tile_cover (p0 : Vec F S1x256x64 .f32) (y : S1x256x64.Idx) :
    ∃ pc ∈ ([⟨rTile, p0⟩] : List (View.Piece (Elt F) S1x256x64 .f32)), y ∈ pc.1.set :=
  View.cover_of_tiled [⟨rTile, p0⟩] S1x256x64.size (by rfl) y

set_option maxHeartbeats 1000000 in
/-- The body on whole staging memrefs, the inputs at contents `x0 x1 x2` and the output tile at anything, runs to the
    continuation holding the inputs as they were and the output tile at `tileOut x0 x1 x2`. -/
theorem sound_kernel (c : Dev nD) (E : Set ℕ) (i : grid0.Coords)
    (arg2 : Memref sig .tc .vmem S1x256x64 .f32) (harg2 : arg2.IsWhole) (arg3 : Memref sig .tc .vmem S1x2048x64 .f32) (harg3 : arg3.IsWhole)
    (arg4 : Memref sig .tc .vmem S1x2048x64 .f32) (harg4 : arg4.IsWhole) (arg5 : Memref sig .tc .vmem S1x256x64 .f32) (harg5 : arg5.IsWhole)
    (x0 : Vec F S1x256x64 .f32) (x1 x2 : Vec F S1x2048x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (tileOut x0 x1 x2)) -∗ K ⟨⟩))
      ⊢ wp frame (wpE (defs₀ (F := F)) Variants.none c none) E (cc0__attn_kernel i arg2 harg2 arg3 harg3 arg4 harg4 arg5 harg5) K := by
  simp only [cc0__attn_kernel_eq_skeleton]; unfold cc0__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tile_cover _)

end Cert.KernelIdeal.Hand

end
-- ==== Proof.AttnRunIdeal.lean ====
/-
  The attention kernel's run: @main is two reshapes (batch × head merged into 16 heads, for the queries and for the values),
  ONE kernel region over a 16 × 8 grid, and a reshape of the result back.

  The region has four windows: a tile of 256 query rows (head bh, tile qi), ALL 2048 rows of the same array as keys (head bh),
  all 2048 value rows (head bh), and the output tile (head bh, tile qi). The query tile and the key block are windows on ONE
  array — the merged queries — so the array's points-to is split in two halves between them for the region's duration and
  joined again at its exit. Every tile of the output is written back exactly once; the inputs are only read.
-/
import proofs.«150626_j15702400434263_1_alg».proof.Proof.AttnBodyIdeal
import Idealize.ShloMosaic.Lib.Pipeline.Regions
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main before the region: the two reshapes -/

/-- Core `c`'s buffers at launch, as a valuation; -/
abbrev V₀ (c : Dev nD) : Valuation τ sig (Elt F) := fun b => m ((c : Dev nD), b)
/-- and when the region is entered: the two reshapes have run. -/
abbrev V1 (c : Dev nD) : Valuation τ sig (Elt F) := StableHlo.after hostOps0 (V₀ m c)
abbrev V (c : Dev nD) (b : Ref sig .tc) : Buf (Elt F) ((c : Thread nD τ).loc b) := V1 m c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The pipeline's proof data -/

/-- The proof data on core `c`: the arrays as the region finds them; after the body at point `t` each input's buffer at its
    block and the output's at the body's arithmetic of the three input blocks; the invariant the scoped rest and the
    generator register, untouched; nothing owed; the merged queries' array held in two halves, one per window on it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tileOut (iblk m c 0 t) (iblk m c 1 t) (iblk m c 2 t)
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = tileOut (iblk m c 0 t) (iblk m c 1 t) (iblk m c 2 t) := by dsimp only [dats]

/-- Each input's current staging buffer holds its block at every point, fetched there or not: unfetched, the block index
    has not moved since the point that fetched it. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, the output's anything; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.AttnLaunchIdeal.lean ====
/-
  The attention kernel's launch: @main as three segments — the two reshapes, the region, the reshape of the result — and the
  run that follows: every weakly fair execution terminates, nothing faults, the two argument arrays end as they were, and the
  result array holds the reshape of what the region's write-backs left.

  The one thing particular to this kernel is at the region's two ends. The merged queries' array is the array of TWO windows
  (the query tile and the key block). At the entry its points-to is split into the two halves of the full share, one per
  window; both windows only read, so at the exit both halves still hold the entry contents and join back into the whole.
-/
import proofs.«150626_j15702400434263_1_alg».proof.Proof.AttnRunIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole of the certificate's. -/
abbrev EP : Emb (UR sig nD τ) (MT nD τ sig Unit (Elt F) ℕ (UR sig nD τ) ℕ) := emb₁

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-- The launch element: the pipeline library's at the staging cells. -/
def u₀ : UR sig nD τ := initOf (Pipeline.cells cfgs cellOf_inj) (Pipeline.launchToks cfgs cellOf_inj)

/-- What rides beside the buffers through the host operations: what the core owes (nothing) and its generator register. -/
abbrev R (c : Dev nD) : sProp 𝕄 :=
  iprop((∃ W, owes (c : Thread nD τ) (0 : CellTallies nD τ sig Unit) W) ∗ ∃ r, prngReg c r)

/-! ## The pipeline's arrays, window by window -/

/-- The proof data's arrays at contents `G`: the merged queries' array in two halves, the merged values' array and the
    result array whole. -/
theorem arrays_eq4 (c : Dev nD) (G : (w : Fin cfg0.W) → Buf (Elt F) ((cfg0.win w).arr.view.loc (c : Thread nD τ))) :
    ((dats m 0 c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2) ∗ (((c : Thread nD τ).loc main_v2) ↦{fullShare} G 3)) := by
  unfold Dat.arrays
  rw [bigSep_W0]
  rw [(arr_whole0 0).set_eq_univ, (arr_whole0 2).set_eq_univ, (arr_whole0 3).set_eq_univ]
  rfl

/-- The distinct buffers behind the windows' arrays, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1)
          ∗ (((c : Thread nD τ).loc main_v2) ↦{fullShare} W main_v2)) := by
  unfold Pipeline.arrBufs
  exact bigSep_eq_bigSepL_of_eq [main_v0, main_v1, main_v2] (by decide) (by decide) _

/-- A core's unscoped buffers, one by one: the three arrays the windows stage, and the three that bypass the region. -/
theorem unscoped_split (c : Dev nD) (W : (b : Ref sig .tc) → Buf (Elt F) ((c : Thread nD τ).loc b)) :
    (unscopedBufs c W : sProp 𝕄)
      = iprop(((((c : Thread nD τ).loc main_v0) ↦{fullShare} W main_v0) ∗ (((c : Thread nD τ).loc main_v1) ↦{fullShare} W main_v1)
            ∗ (((c : Thread nD τ).loc main_v2) ↦{fullShare} W main_v2))
          ∗ ((((c : Thread nD τ).loc main_arg0) ↦{fullShare} W main_arg0) ∗ (((c : Thread nD τ).loc main_arg1) ↦{fullShare} W main_arg1)
            ∗ (((c : Thread nD τ).loc main_v3) ↦{fullShare} W main_v3))) := by
  rw [Pipeline.unscopedBufs_split₀ cfgs 0 winFacts₀0.arr_unscoped c W]
  show iprop(Pipeline.arrBufs spec0 c W ∗ Pipeline.unscopedRest spec0 c W) = _
  rw [arrBufs_eq, unscopedRest0_eq]

/-! ## The segments -/

/-- THE FIRST HOST SEGMENT: the two reshapes over the unscoped buffers. -/
def seg0 : Pipeline.HostSeg (Name := ℕ) (U := UR sig nD τ) (pcfgs (F := F)) defs₀ Variants.none L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- The result array over merged heads, as the region's write-backs leave it. -/
def outArr (c : Dev nD) : Buf (Elt F) ((c : Thread nD τ).loc main_v2) := (dats m 0 c).arrAt 3 cfg0.N

/-- Core `c`'s buffers when the region is left: the result array written, every other buffer as the region found it. -/
def V2 (c : Dev nD) : Valuation τ sig (Elt F) := Function.update (V1 m c) (Proc.devRef .tc main_v2) (outArr m c)

theorem V2_v2 (c : Dev nD) : V2 m c (Proc.devRef .tc main_v2) = outArr m c := by
  unfold V2; exact Function.update_self _ _ _
theorem V2_v3 (c : Dev nD) : V2 m c (Proc.devRef .tc main_v3) = V1 m c (Proc.devRef .tc main_v3) := by
  unfold V2; exact Function.update_of_ne (by decide) _ _

/-- The two buffers the last reshape touches. -/
abbrev S23 : Finset (DevRef τ sig) := {Proc.devRef .tc main_v2, Proc.devRef .tc main_v3}

/-- Those two held at a valuation, one by one. -/
theorem held23 (c : Dev nD) (W : Valuation τ sig (Elt F)) :
    (StableHlo.held (c : Thread nD τ) S23 W : sProp 𝕄)
      = iprop((((c : Thread nD τ).1, Proc.devRef .tc main_v2) ↦{fullShare} W (Proc.devRef .tc main_v2))
          ∗ (((c : Thread nD τ).1, Proc.devRef .tc main_v3) ↦{fullShare} W (Proc.devRef .tc main_v3))) := by
  show bigSep ({Proc.devRef .tc main_v2, Proc.devRef .tc main_v3} : Finset (DevRef τ sig)) _ = _
  rw [bigSep_insert (by rw [Finset.mem_singleton]; exact StableHlo.devRef_ne_of_ne (by decide)), bigSep_singleton]
  rfl

/-- What rides beside them through the last reshape: the two argument arrays, as the region found them, and `R`. -/
abbrev R' (c : Dev nD) : sProp 𝕄 :=
  iprop((((c : Thread nD τ).loc main_arg0) ↦{fullShare} V m c main_arg0) ∗ (((c : Thread nD τ).loc main_arg1) ↦{fullShare} V m c main_arg1) ∗ R c)

/-- THE LAST HOST SEGMENT: the reshape of the result back to batch × head. -/
def seg1 : Pipeline.HostSeg (Name := ℕ) (U := UR sig nD τ) (pcfgs (F := F)) defs₀ Variants.none L lv :=
  Pipeline.HostSeg.ofOps _ _ _ _ _ S23 hostOps1
    (by intro op h; (repeat (cases h with | head => exact Finset.Subset.refl _ | tail _ h => ?_)); exact nomatch h)
    (by intro _ h; (repeat (cases h with | head => rfl | tail _ h => ?_)); exact nomatch h) (V2 m) (R' m)

set_option backward.isDefEq.respectTransparency.types false in
/-- THE REGION: entered from what the reshapes left — the windows' arrays into the pipeline, the merged queries' array in two
    halves; the generator register into the invariant; the argument arrays and the final result's buffer bypassing —, left
    with the result array written and the halves joined. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) S23 (V2 m c) ∗ R' m c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [show StableHlo.held (c : Thread nD τ) (Pipeline.ucRefs τ sig) (V1 m c) = unscopedBufs c (V m c) from (Pipeline.unscopedBufs_held c _).symm,
      unscoped_split, arrays_eq4, unscopedRest0_eq]
    iintro ⟨⟨⟨⟨H0, H1, H2⟩, Hrest⟩, HO, Hp⟩, -, -⟩
    ihave H0 := (pointsTo_share (PosShare.mem_left_op_right fullShare)).1 $$ H0
    icases H0 with ⟨H0l, H0r⟩
    imodintro
    isplitl [H0l H0r H1 H2]
    · isplitl [H0l]; · iexact H0l
      isplitl [H0r]; · iexact H0r
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr] <;> iassumption
  hout c := by
    rw [Pipeline.ownSems0_none, show (dats m 0 c).Φ (Fin.last cfg0.N) = Pipeline.ΦA spec0 c from rfl]; unfold Pipeline.ΦA
    iintro ⟨Hr, Hp⟩
    isplitl [Hp]; · iexact Hp
    isplitr; · iempintro
    iexact Hr
  hexit c := by
    rw [arrays_eq4, unscopedRest0_eq]
    rw [(dats m 0 c).arrAt_in 0 rfl, (dats m 0 c).arrAt_in 1 rfl]
    iintro ⟨⟨H0l, H0r, H1, H2⟩, HO, Hp, ⟨Ha0, Ha1, Ha3⟩⟩
    imodintro
    isplitl [H2 Ha3]
    · rw [held23]
      isplitl [H2]
      · rw [V2_v2]; iexact H2
      · rw [V2_v3]; iexact Ha3
    isplitl [Ha0]; · iexact Ha0
    isplitl [Ha1]; · iexact Ha1
    isplitl [HO]
    · unfold Pipeline.Dat.owesAt Pipeline.owesWithin
      icases HO with ⟨%W, -, HO⟩; iexists W; iexact HO
    iexact Hp

/-- @main as the list of the three. -/
abbrev segs : List (Pipeline.Seg (pcfgs (F := F)) adm (dats m) () defs₀ Variants.none L lv) :=
  [.host (seg0 m), .region (reg0 m), .host (seg1 m)]

/-- Core `c`'s buffers at the end: the last reshape has run. -/
abbrev V3 (c : Dev nD) : Valuation τ sig (Elt F) := StableHlo.after hostOps1 (V2 m c)

/-- What is left at the end: the result's two buffers after the last reshape, the two argument arrays, the register. -/
abbrev Tₙ (c : Dev nD) : sProp 𝕄 :=
  iprop(StableHlo.held (c : Thread nD τ) S23 (V3 m c)
    ∗ (((c : Thread nD τ).loc main_arg0) ↦{fullShare} V m c main_arg0) ∗ (((c : Thread nD τ).loc main_arg1) ↦{fullShare} V m c main_arg1))

/-- The physical post: the two argument arrays as the region found them, the final result at the last reshape's value. -/
def QC : PUnit × MemSt nD τ sig (Elt F) → Prop := fun r =>
  ∀ c : Dev nD, r.2.mem ((c : Thread nD τ).loc main_v3) = V3 m c (Proc.devRef .tc main_v3)
    ∧ r.2.mem ((c : Thread nD τ).loc main_arg0) = V m c main_arg0
    ∧ r.2.mem ((c : Thread nD τ).loc main_arg1) = V m c main_arg1

set_option backward.isDefEq.respectTransparency.types false in
/-- At the compiled mesh, for any float values, from any memory with zero counters: every weakly fair execution of @main on
    the TensorCores terminates, and every final state satisfies `QC`. -/
theorem run_main : θ_run defs (onTc (τ := τ) (main (F := F))) (s₀ m ρ) (QC m) :=
  Pipeline.θ_run_regions_kit (pcfgs (F := F)) adm (dats m) () cellOf_inj EP defs₀ Variants.none L lv m ρ main (segs m)
    (fun c Q => by rw [main_segs adm (dats m) () Variants.none L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop(StableHlo.held (c : Thread nD τ) S23 (V3 m c) ∗ R' m c) ⊢ iprop(Tₙ m c ∗ ∃ W, owes (c : Thread nD τ) (0 : CellTallies nD τ sig Unit) W)
      iintro ⟨Hh, Ha0, Ha1, ⟨HO, -⟩⟩
      isplitr [HO]
      · isplitl [Hh]; · iexact Hh
        isplitl [Ha0] <;> iassumption
      · iexact HO⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hp, -⟩, -⟩
      imodintro
      isplitl [Hh]; · iexact Hh
      isplitl [HO]; · iexists ∅; iexact HO
      iexists _; iexact Hp)
    (QY := fun c s => s.mem ((c : Thread nD τ).loc main_v3) = V3 m c (Proc.devRef .tc main_v3)
      ∧ s.mem ((c : Thread nD τ).loc main_arg0) = V m c main_arg0
      ∧ s.mem ((c : Thread nD τ).loc main_arg1) = V m c main_arg1)
    (hfin := fun c s' => by
      dsimp only [Tₙ]
      rw [held23]
      iintro ⟨⟨⟨-, H3⟩, H0, H1⟩, HSI⟩
      icombine HSI H3 gives %h3
      icombine HSI H0 gives %h0
      icombine HSI H1 gives %h1
      imodintro
      isplitr
      · ipureintro; exact ⟨Buf.eq_of_forall_mem_univ h3, Buf.eq_of_forall_mem_univ h0, Buf.eq_of_forall_mem_univ h1⟩
      iexact HSI)
    (hQ := fun _ h => h)

/-! ## The argument arrays are never written -/

/-- Neither reshape before the region writes an argument array: the region finds both as launched. -/
theorem V_arg0 (c : Dev nD) : V m c main_arg0 = m ((c : Thread nD τ).loc main_arg0) := by
  show StableHlo.after hostOps0 (V₀ m c) (Proc.devRef .tc main_arg0) = _
  after_results
theorem V_arg1 (c : Dev nD) : V m c main_arg1 = m ((c : Thread nD τ).loc main_arg1) := by
  show StableHlo.after hostOps0 (V₀ m c) (Proc.devRef .tc main_arg1) = _
  after_results

/-- THE FRAME: every weakly fair execution terminates, nothing faults, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).2.1.trans (V_arg0 m c), (h c).2.2.trans (V_arg1 m c)⟩) (run_main m ρ)

end Cert.KernelIdeal.Hand

end
-- ==== Proof.AttnSpec.lean ====
/-
  Softmax-free Gaussian-kernel attention, as ONE function of the query rows and the value rows.

  A head has rows q_0 … q_2047 of 64 entries and value rows v_0 … v_2047 of 64 entries (extended reals here). Row r of
  the result is
      Σ_j  exp (c · ((‖q_r‖² + ‖q_j‖²) − two · ⟨q_r, q_j⟩)) · v_j ,
  with ‖q‖² = Σ_k q_k · q_k and ⟨q_r, q_j⟩ = Σ_k q_rk · q_jk: the squared distance ‖q_r − q_j‖² in its expanded form. `c`
  and `two` are the two float words both programs multiply by (−1/16 and 2); the same word stands on both sides, so neither
  is ever evaluated. The function is stated twice: over the 16 heads merged on one axis (`attn3`, the form a kernel block
  computes) and over batch × head (`attn4`, the form of the jnp reference); `attn4_eq` says they are one function once the
  two leading axes are merged row-major, 8 heads to a batch.
-/
import Idealize.ShloMosaic.PureOps.Ideal
import Idealize.ShloMosaic.Lib.ValueIdx

noncomputable section

open scoped BigOperators

namespace Cert.Attn

open Idealize.ShloMosaic Idealize.ShloMosaic.ValueIdx

/-- The arrays over merged heads, and over batch × head. -/
abbrev H3 : Shape := ⟨3, ![16, 2048, 64]⟩
abbrev H4 : Shape := ⟨4, ![2, 8, 2048, 64]⟩

/-- The scale of the exponent: the word both programs carry (it denotes −1/16). -/
def cW : EReal := Ideal.ofBits .f32 0xBD800000#32
/-- The factor of the inner product: the word both programs carry (it denotes 2). -/
def twoW : EReal := Ideal.ofBits .f32 0x40000000#32

/-! ## Over merged heads -/

/-- ‖q_r‖² in head `b`. -/
def sqn3 (Q : H3.Idx → EReal) (b : Fin 16) (r : Fin 2048) : EReal := ∑ k : Fin 64, Q (ix3 b r k) * Q (ix3 b r k)
/-- ⟨q_r, q_j⟩ in head `b`. -/
def dot3 (Q : H3.Idx → EReal) (b : Fin 16) (r j : Fin 2048) : EReal := ∑ k : Fin 64, Q (ix3 b r k) * Q (ix3 b j k)
/-- The weight of value row `j` in result row `r`. -/
def score3 (Q : H3.Idx → EReal) (b : Fin 16) (r j : Fin 2048) : EReal :=
  Ideal.exp (cW * ((sqn3 Q b r + sqn3 Q b j) - twoW * dot3 Q b r j))
/-- The attention of head `b`, row `r`, column `d`. -/
def attn3 (Q V : H3.Idx → EReal) : H3.Idx → EReal := fun i => ∑ j : Fin 2048, score3 Q (i 0) (i 1) j * V (ix3 (i 0) j (i 2))

/-! ## Over batch × head -/

def sqn4 (q : H4.Idx → EReal) (b : Fin 2) (h : Fin 8) (r : Fin 2048) : EReal := ∑ k : Fin 64, q (ix4 b h r k) * q (ix4 b h r k)
def dot4 (q : H4.Idx → EReal) (b : Fin 2) (h : Fin 8) (r j : Fin 2048) : EReal := ∑ k : Fin 64, q (ix4 b h r k) * q (ix4 b h j k)
def score4 (q : H4.Idx → EReal) (b : Fin 2) (h : Fin 8) (r j : Fin 2048) : EReal :=
  Ideal.exp (cW * ((sqn4 q b h r + sqn4 q b h j) - twoW * dot4 q b h r j))
def attn4 (q v : H4.Idx → EReal) : H4.Idx → EReal := fun i => ∑ j : Fin 2048, score4 q (i 0) (i 1) (i 2) j * v (ix4 (i 0) (i 1) j (i 3))

end Cert.Attn

end
-- ==== Proof.BlockIsAttn.lean ====
import proofs.«150626_j15702400434263_1_alg».proof.Proof.Gen.KernelIdeal.Skeleton
import proofs.«150626_j15702400434263_1_alg».proof.Proof.AttnSpec
import Idealize.ShloMosaic.Lib.ValueLayout
import Idealize.ShloMosaic.Lib.ValueIdx
import Idealize.ShloMosaic.Lib.Pipeline.Value
import Idealize.ShloMosaic.PureOps.Ideal.Laws

noncomputable section

open scoped BigOperators

/-
  The kernel block's arithmetic read at an index. The body of the attention kernel is one pure term of the three blocks
  it loads: a tile of 256 query rows, all 2048 key rows, all 2048 value rows, each of 64 entries. Row r, column d of what it
  stores is
      Σ_j  exp (c · ((‖q_r‖² + ‖k_j‖²) − two · ⟨q_r, k_j⟩)) · v_jd ,
  with c and two the float words of Cert.Attn (never evaluated). The narrowing to bf16 before each product is the identity
  on extended reals; each product accumulates into a zero splat, so it is the plain sum over its contraction axis.
-/
namespace Cert.Attn.Block

open Idealize.ShloMosaic Idealize.ShloMosaic.ValueIdx Cert.KernelIdeal Cert.KernelIdeal.Gen

/-! ## Layout operations at an index given by coordinates: the column forms -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two reductions and the two products at an index -/

/-- The sum over the columns of an `[n, m]` array, at row `r`. -/
theorem rowSum_apply {n m : ℕ} (y : FVec Ideal ⟨2, ![n, m]⟩ .f32) (h : (⟨2, ![n, m]⟩ : Shape).Reduces [1] ⟨1, ![n]⟩)
    (hφ : FKind.Formats .f32) (hacc : (0x00000000#32 : BitVec 32) = FKind.add.neutral .f32 hφ) (r : Fin n) :
    multiReduction (F := Ideal) .add [1] ⟨1, ![n]⟩ y 0x00000000#32 h hφ hacc (ix1 r) = ∑ k : Fin m, y (ix2 r k) := by
  refine (Ideal.multiReduction_add_single y 0x00000000#32 h hφ hacc (ix1 r)).trans ?_
  refine Finset.sum_congr rfl fun k _ => congrArg y (funext fun c => Fin.ext ?_)
  match c with
  | ⟨0, _⟩ => rfl
  | ⟨1, _⟩ => rfl

/-- The dimension numbers of the two products: queries × keys over the 64 entries of a row, and weights × values over
    the 2048 key rows. -/
abbrev D1 : DotDims S256x64 S2048x64 S256x2048 := dot_S256x64_S2048x64_S256x2048_1_1_0_0_n_n
abbrev D2 : DotDims S256x2048 S2048x64 S256x64 := dot_S256x2048_S2048x64_S256x64_1_0_0_1_n_n

theorem D1_lhs_0 (i : S256x2048.Idx) (q : D1.contr.Idx) : (D1.lhsIdx i q 0).val = (i 0).val := by
  unfold DotDims.lhsIdx
  rw [dif_neg (show ¬(0 : Fin S256x64.rank) ∈ D1.lhsBatch by decide), dif_pos (show (0 : Fin S256x64.rank) ∈ D1.lhsNonContracting by decide)]
  rfl
theorem D1_lhs_1 (i : S256x2048.Idx) (q : D1.contr.Idx) : (D1.lhsIdx i q 1).val = (q ⟨0, by decide⟩).val :=
  D1.lhsIdx_val_of_single rfl i q
theorem D1_rhs_0 (i : S256x2048.Idx) (q : D1.contr.Idx) : (D1.rhsIdx i q 0).val = (i 1).val := by
  unfold DotDims.rhsIdx
  rw [dif_neg (show ¬(0 : Fin S2048x64.rank) ∈ D1.rhsBatch by decide), dif_pos (show (0 : Fin S2048x64.rank) ∈ D1.rhsNonContracting by decide)]
  rfl
theorem D1_rhs_1 (i : S256x2048.Idx) (q : D1.contr.Idx) : (D1.rhsIdx i q 1).val = (q ⟨0, by decide⟩).val :=
  D1.rhsIdx_val_of_single rfl i q

/-- The first product into the zero splat, at `(r, j)`: the inner product of row `r` of the left operand and row `j` of
    the right one. -/
theorem gram_apply (a : FVec Ideal S256x64 .bf16) (b : FVec Ideal S2048x64 .bf16) (r : Fin 256) (j : Fin 2048) :
    matmul D1 none a b (constant (F := Ideal) S256x2048 .f32 0x00000000#32) (ix2 r j)
      = ∑ k : Fin 64, a (ix2 r k) * b (ix2 j k) := by
  refine (Ideal.matmul_constant_zero_apply D1 none a b (ix2 r j)).trans ?_
  rw [← Equiv.sum_comp (contrEquiv1 D1 64 rfl rfl).symm]
  refine Finset.sum_congr rfl fun k _ => ?_
  have hk := contrEquiv1_symm_val D1 64 rfl rfl k
  have el : D1.lhsIdx (ix2 r j) ((contrEquiv1 D1 64 rfl rfl).symm k) = ix2 r k := funext fun c => Fin.ext (by
    match c with
    | ⟨0, _⟩ => exact D1_lhs_0 _ _
    | ⟨1, _⟩ => exact (D1_lhs_1 _ _).trans hk)
  have er : D1.rhsIdx (ix2 r j) ((contrEquiv1 D1 64 rfl rfl).symm k) = ix2 j k := funext fun c => Fin.ext (by
    match c with
    | ⟨0, _⟩ => exact D1_rhs_0 _ _
    | ⟨1, _⟩ => exact (D1_rhs_1 _ _).trans hk)
  rw [el, er]

theorem D2_lhs_0 (i : S256x64.Idx) (q : D2.contr.Idx) : (D2.lhsIdx i q 0).val = (i 0).val := by
  unfold DotDims.lhsIdx
  rw [dif_neg (show ¬(0 : Fin S256x2048.rank) ∈ D2.lhsBatch by decide), dif_pos (show (0 : Fin S256x2048.rank) ∈ D2.lhsNonContracting by decide)]
  rfl
theorem D2_lhs_1 (i : S256x64.Idx) (q : D2.contr.Idx) : (D2.lhsIdx i q 1).val = (q ⟨0, by decide⟩).val :=
  D2.lhsIdx_val_of_single rfl i q
theorem D2_rhs_0 (i : S256x64.Idx) (q : D2.contr.Idx) : (D2.rhsIdx i q 0).val = (q ⟨0, by decide⟩).val :=
  D2.rhsIdx_val_of_single rfl i q
theorem D2_rhs_1 (i : S256x64.Idx) (q : D2.contr.Idx) : (D2.rhsIdx i q 1).val = (i 1).val := by
  unfold DotDims.rhsIdx
  rw [dif_neg (show ¬(1 : Fin S2048x64.rank) ∈ D2.rhsBatch by decide), dif_pos (show (1 : Fin S2048x64.rank) ∈ D2.rhsNonContracting by decide)]
  rfl

/-- The second product into the zero splat, at `(r, d)`: the sum over the 2048 rows `j` of the left operand at `(r, j)`
    times the right one at `(j, d)`. -/
theorem mix_apply (p : FVec Ideal S256x2048 .bf16) (v : FVec Ideal S2048x64 .bf16) (r : Fin 256) (d : Fin 64) :
    matmul D2 none p v (constant (F := Ideal) S256x64 .f32 0x00000000#32) (ix2 r d)
      = ∑ j : Fin 2048, p (ix2 r j) * v (ix2 j d) := by
  refine (Ideal.matmul_constant_zero_apply D2 none p v (ix2 r d)).trans ?_
  rw [← Equiv.sum_comp (contrEquiv1 D2 2048 rfl rfl).symm]
  refine Finset.sum_congr rfl fun j _ => ?_
  have hj := contrEquiv1_symm_val D2 2048 rfl rfl j
  have el : D2.lhsIdx (ix2 r d) ((contrEquiv1 D2 2048 rfl rfl).symm j) = ix2 r j := funext fun c => Fin.ext (by
    match c with
    | ⟨0, _⟩ => exact D2_lhs_0 _ _
    | ⟨1, _⟩ => exact (D2_lhs_1 _ _).trans hj)
  have er : D2.rhsIdx (ix2 r d) ((contrEquiv1 D2 2048 rfl rfl).symm j) = ix2 j d := funext fun c => Fin.ext (by
    match c with
    | ⟨0, _⟩ => exact (D2_rhs_0 _ _).trans hj
    | ⟨1, _⟩ => exact D2_rhs_1 _ _)
  rw [el, er]

/-! ## The block's body in stages

The generated payload is one term of the three loaded blocks. The stages below are that term cut at its five
non-pointwise operations, over the blocks already cast to matrices: the row norms spread along the rows, the key norms
spread along the columns, the table of inner products, the weights, and the weighted sum of the value rows. -/

/-- ‖q_r‖² at every `(r, j)`: the row sums of the squares, as a column, broadcast over the 2048 columns. -/
def rowSq (q : FVec Ideal S256x64 .f32) : FVec Ideal S256x2048 .f32 :=
  broadcastTo S256x2048
    (shapeCast S256x1
      (multiReduction (F := Ideal) .add [1] S256 (mulf q q) 0x00000000#32 reduces_S256x64_S256 (.inl rfl) rfl)
      shapeCasts_S256_S256x1)
    broadcasts_S256x1_S256x2048

/-- ‖k_j‖² at every `(r, j)`: the row sums of the squares, as a column, transposed to a row, broadcast over the 256 rows. -/
def colSq (k : FVec Ideal S2048x64 .f32) : FVec Ideal S256x2048 .f32 :=
  broadcastTo S256x2048
    (transpose S1x2048 [1, 0]
      (shapeCast S2048x1
        (multiReduction (F := Ideal) .add [1] S2048 (mulf k k) 0x00000000#32 reduces_S2048x64_S2048 (.inl rfl) rfl)
        shapeCasts_S2048_S2048x1)
      transposes_S2048x1_p1_0_S1x2048)
    broadcasts_S1x2048_S256x2048

/-- ⟨q_r, k_j⟩ at every `(r, j)`. -/
def gram (q : FVec Ideal S256x64 .f32) (k : FVec Ideal S2048x64 .f32) : FVec Ideal S256x2048 .f32 :=
  matmul D1 none (truncf .bf16 q bitsLt_bf16_f32) (truncf .bf16 k bitsLt_bf16_f32)
    (constant (F := Ideal) S256x2048 .f32 0x00000000#32)

/-- The weight of key row `j` in result row `r`. -/
def weights (q : FVec Ideal S256x64 .f32) (k : FVec Ideal S2048x64 .f32) : FVec Ideal S256x2048 .f32 :=
  exp (mulf (broadcast S256x2048 (Scalar.ofBits (F := Ideal) .f32 0xBD800000#32))
    (subf (addf (rowSq q) (colSq k))
      (mulf (broadcast S256x2048 (Scalar.ofBits (F := Ideal) .f32 0x40000000#32)) (gram q k))))

/-- The weighted sum of the value rows. -/
def mixed (q : FVec Ideal S256x64 .f32) (k v : FVec Ideal S2048x64 .f32) : FVec Ideal S256x64 .f32 :=
  matmul D2 none (truncf .bf16 (weights q k) bitsLt_bf16_f32) (truncf .bf16 v bitsLt_bf16_f32)
    (constant (F := Ideal) S256x64 .f32 0x00000000#32)

/-- The generated payload is the last stage, of the three blocks cast to matrices, cast back to a block. -/
theorem pay_eq (x0 : Vec Ideal S1x256x64 .f32) (x1 x2 : Vec Ideal S1x2048x64 .f32) :
    k0_pay1 (F := Ideal) x0 x1 x2
      = shapeCast S1x256x64
          (mixed (shapeCast S256x64 x0 shapeCasts_S1x256x64_S256x64) (shapeCast S2048x64 x1 shapeCasts_S1x2048x64_S2048x64)
            (shapeCast S2048x64 x2 shapeCasts_S1x2048x64_S2048x64))
          shapeCasts_S256x64_S1x256x64 := rfl

theorem rowSq_apply (q : FVec Ideal S256x64 .f32) (r : Fin 256) (j : Fin 2048) :
    rowSq q (ix2 r j) = ∑ k : Fin 64, q (ix2 r k) * q (ix2 r k) := by
  unfold rowSq
  refine (broadcastTo_a1_ab_apply _ _ r j).trans ?_
  refine (shapeCast_a_a1_apply _ _ r 0).trans ?_
  exact rowSum_apply (mulf q q) _ _ _ r

theorem colSq_apply (k : FVec Ideal S2048x64 .f32) (r : Fin 256) (j : Fin 2048) :
    colSq k (ix2 r j) = ∑ c : Fin 64, k (ix2 j c) * k (ix2 j c) := by
  unfold colSq
  refine (broadcastTo_1b_ab_apply _ _ r j).trans ?_
  refine (transpose_ix2_apply _ _ (0 : Fin 1) j).trans ?_
  refine (shapeCast_a_a1_apply _ _ j 0).trans ?_
  exact rowSum_apply (mulf k k) _ _ _ j

theorem gram_at (q : FVec Ideal S256x64 .f32) (k : FVec Ideal S2048x64 .f32) (r : Fin 256) (j : Fin 2048) :
    gram q k (ix2 r j) = ∑ c : Fin 64, q (ix2 r c) * k (ix2 j c) :=
  gram_apply _ _ r j

theorem weights_apply (q : FVec Ideal S256x64 .f32) (k : FVec Ideal S2048x64 .f32) (r : Fin 256) (j : Fin 2048) :
    weights q k (ix2 r j)
      = Ideal.exp (Cert.Attn.cW * (((∑ c : Fin 64, q (ix2 r c) * q (ix2 r c)) + (∑ c : Fin 64, k (ix2 j c) * k (ix2 j c)))
          - Cert.Attn.twoW * (∑ c : Fin 64, q (ix2 r c) * k (ix2 j c)))) := by
  show Ideal.exp (Cert.Attn.cW * ((rowSq q (ix2 r j) + colSq k (ix2 r j)) - Cert.Attn.twoW * gram q k (ix2 r j))) = _
  rw [rowSq_apply, colSq_apply, gram_at]

theorem mixed_apply (q : FVec Ideal S256x64 .f32) (k v : FVec Ideal S2048x64 .f32) (r : Fin 256) (d : Fin 64) :
    mixed q k v (ix2 r d) = ∑ j : Fin 2048, weights q k (ix2 r j) * v (ix2 j d) :=
  mix_apply _ _ r d

/-- THE BLOCK AT AN INDEX: row `r`, column `d` of what the body stores is the sum over the 2048 key rows `j` of the weight
    exp (c · ((‖q_r‖² + ‖k_j‖²) − two · ⟨q_r, k_j⟩)) times the value row `j` at `d`, the rows read from the three loaded blocks. -/
theorem block_at (x0 : Vec Ideal S1x256x64 .f32) (x1 x2 : Vec Ideal S1x2048x64 .f32) (r : Fin 256) (d : Fin 64) :
    k0_pay1 (F := Ideal) x0 x1 x2 (ix3 0 r d)
      = ∑ j : Fin 2048, Ideal.exp (Cert.Attn.cW * (((∑ k : Fin 64, x0 (ix3 0 r k) * x0 (ix3 0 r k)) + (∑ k : Fin 64, x1 (ix3 0 j k) * x1 (ix3 0 j k)))
            - Cert.Attn.twoW * (∑ k : Fin 64, x0 (ix3 0 r k) * x1 (ix3 0 j k)))) * x2 (ix3 0 j d) := by
  rw [pay_eq]
  refine (shapeCast_ab_1ab_apply _ _ 0 r d).trans ?_
  rw [mixed_apply]
  refine Finset.sum_congr rfl fun j _ => ?_
  rw [weights_apply]
  simp only [shapeCast_1ab_ab_apply]

end Cert.Attn.Block

end
-- ==== Proof.AttnMerge.lean ====
/-
  Merging batch and head is transparent to the attention.

  Reshaping [2, 8, 2048, 64] to [16, 2048, 64] row-major sends (b, h, r, k) to (8·b + h, r, k): each head keeps its rows. The
  attention of a head reads only that head's rows, so computing it over the 16 merged heads and reshaping the result back is
  computing it over batch × head.
-/
import proofs.«150626_j15702400434263_1_alg».proof.Proof.AttnSpec
import Idealize.ShloMosaic.Lib.Pipeline.Value

noncomputable section

open scoped BigOperators

namespace Cert.Attn

open Idealize.ShloMosaic Idealize.ShloMosaic.ValueIdx

/-- Head `h` of batch `b` among the 16 merged heads. -/
def mg (b : Fin 2) (h : Fin 8) : Fin 16 := ⟨b.val * 8 + h.val, by omega⟩

/-- The merged array at (8·b + h, r, k) is the array at (b, h, r, k). -/
theorem merged_at (q : H4.Idx → EReal) (hq : H4.ShapeCasts H3) (b : Fin 2) (h : Fin 8) (r : Fin 2048) (k : Fin 64) :
    shapeCast H3 q hq (ix3 (mg b h) r k) = q (ix4 b h r k) :=
  shapeCast_apply q hq (ix3 (mg b h) r k) (ix4 b h r k) (by
    rw [Shape.rowMajor_val_three, Shape.rowMajor_val_four]; rfl)

/-- An array over merged heads, reshaped back, at (b, h, r, d) is the array at (8·b + h, r, d). -/
theorem split_at (X : H3.Idx → EReal) (ho : H3.ShapeCasts H4) (b : Fin 2) (h : Fin 8) (r : Fin 2048) (d : Fin 64) :
    shapeCast H4 X ho (ix4 b h r d) = X (ix3 (mg b h) r d) :=
  shapeCast_apply X ho (ix4 b h r d) (ix3 (mg b h) r d) (by
    rw [Shape.rowMajor_val_three, Shape.rowMajor_val_four]; rfl)

theorem sqn_merged (q : H4.Idx → EReal) (hq : H4.ShapeCasts H3) (b : Fin 2) (h : Fin 8) (r : Fin 2048) :
    sqn3 (shapeCast H3 q hq) (mg b h) r = sqn4 q b h r := by
  unfold sqn3 sqn4
  exact Finset.sum_congr rfl fun k _ => by rw [merged_at]

theorem dot_merged (q : H4.Idx → EReal) (hq : H4.ShapeCasts H3) (b : Fin 2) (h : Fin 8) (r j : Fin 2048) :
    dot3 (shapeCast H3 q hq) (mg b h) r j = dot4 q b h r j := by
  unfold dot3 dot4
  exact Finset.sum_congr rfl fun k _ => by rw [merged_at, merged_at]

theorem score_merged (q : H4.Idx → EReal) (hq : H4.ShapeCasts H3) (b : Fin 2) (h : Fin 8) (r j : Fin 2048) :
    score3 (shapeCast H3 q hq) (mg b h) r j = score4 q b h r j := by
  unfold score3 score4
  rw [sqn_merged, sqn_merged, dot_merged]

/-- The attention over merged heads of the merged arrays, reshaped back, is the attention over batch × head. -/
theorem attn_merged (q v : H4.Idx → EReal) (hq : H4.ShapeCasts H3) (ho : H3.ShapeCasts H4) :
    shapeCast H4 (attn3 (shapeCast H3 q hq) (shapeCast H3 v hq)) ho = attn4 q v := by
  funext i
  obtain ⟨b, h, r, d, rfl⟩ : ∃ (b : Fin 2) (h : Fin 8) (r : Fin 2048) (d : Fin 64), i = ix4 b h r d := ⟨i 0, i 1, i 2, i 3, eq_ix4 i⟩
  rw [split_at]
  show ∑ j : Fin 2048, score3 (shapeCast H3 q hq) (mg b h) r j * shapeCast H3 v hq (ix3 (mg b h) j d)
    = ∑ j : Fin 2048, score4 q b h r j * v (ix4 b h j d)
  exact Finset.sum_congr rfl fun j _ => by rw [score_merged, merged_at]

end Cert.Attn

end
-- ==== Proof.AttnValue.lean ====
/-
  What the attention kernel's result array holds, at the ideal values.

  At grid point (bh, qi) the body is handed rows 256·qi … 256·qi + 255 of head bh as the query tile and ALL rows of head bh as
  keys and as values, so the tile it stores is rows 256·qi … of head bh of the attention `attn3` of the merged arrays. The 16 × 8
  tiles are written back once each and tile the result array, so after the region the array IS `attn3` of the merged queries
  and values; the reshapes on both sides make that `attn4` of the arguments.
-/
import proofs.«150626_j15702400434263_1_alg».proof.Proof.AttnLaunchIdeal
import proofs.«150626_j15702400434263_1_alg».proof.Proof.BlockIsAttn
import proofs.«150626_j15702400434263_1_alg».proof.Proof.AttnMerge
import Idealize.ShloMosaic.Lib.Pipeline.Value
import Idealize.ShloMosaic.Lib.StableHlo.Run

set_option maxRecDepth 16384

noncomputable section

namespace Cert.KernelIdeal.HandValue

open Cert.KernelIdeal Cert.KernelIdeal.Gen Cert.KernelIdeal.Hand Cert.Attn
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz3 : (![0, 0, 0] : Fin 3 → Nat) = fun _ => 0 := funext fun a => by fin_cases a <;> rfl

/-- The printed index maps, decided over the grid: at every point the query tile and the output tile are the same tile of the
    same head, and the key and value blocks are that head's whole block. -/
theorem idx_facts : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 15 ∧ win0_3.index t (1 : Fin 3) ≤ 7 ∧ win0_3.index t (2 : Fin 3) = 0 :=
  (by decide +kernel : ∀ t : Fin grid0.N, _)

/-- Every tile of every head is some point's. -/
theorem idx_onto : ∀ (q0 : Fin 16) (q1 : Fin 8), ∃ t : Fin cfg0.N, win0_3.index t = ![q0.val, q1.val, 0] :=
  (by decide +kernel : ∀ (q0 : Fin 16) (q1 : Fin 8), ∃ t : Fin grid0.N, win0_3.index t = ![q0.val, q1.val, 0])

/-- A tile's arithmetic, when its three blocks are the rows of head `bh` they are: rows 256·qi … of the attention. -/
theorem tile_at (X0 : Vec Ideal S1x256x64 .f32) (X1 X2 : Vec Ideal S1x2048x64 .f32) (Q Vv : H3.Idx → EReal)
    (bh : Fin 16) (qi : Fin 8)
    (h0 : ∀ (r : Fin 256) (k : Fin 64), X0 (ix3 0 r k) = Q (ix3 bh (⟨qi.val * 256 + r.val, by omega⟩ : Fin 2048) k))
    (h1 : ∀ (j : Fin 2048) (k : Fin 64), X1 (ix3 0 j k) = Q (ix3 bh j k))
    (h2 : ∀ (j : Fin 2048) (k : Fin 64), X2 (ix3 0 j k) = Vv (ix3 bh j k))
    (r : Fin 256) (d : Fin 64) :
    k0_pay1 (F := Ideal) X0 X1 X2 (ix3 0 r d) = attn3 Q Vv (ix3 bh (⟨qi.val * 256 + r.val, by omega⟩ : Fin 2048) d) := by
  refine (Cert.Attn.Block.block_at X0 X1 X2 r d).trans ?_
  show _ = ∑ j : Fin 2048, Ideal.exp (cW * (((∑ k : Fin 64, Q (ix3 bh (⟨qi.val * 256 + r.val, by omega⟩ : Fin 2048) k) * Q (ix3 bh (⟨qi.val * 256 + r.val, by omega⟩ : Fin 2048) k))
      + ∑ k : Fin 64, Q (ix3 bh j k) * Q (ix3 bh j k)) - twoW * ∑ k : Fin 64, Q (ix3 bh (⟨qi.val * 256 + r.val, by omega⟩ : Fin 2048) k) * Q (ix3 bh j k))) * Vv (ix3 bh j d)
  simp only [h0, h1, h2]

/-- WHAT POINT `t` WRITES BACK is block `t` of the attention of the merged arrays as the region finds them. -/
theorem flushed_eq (c : Dev nD) (t : Fin cfg0.N) :
    (dats m 0 c).flushed 3 t = ((cfg0.win 3).blk t).view.read (Elt Ideal) (attn3 (V m c main_v0) (V m c main_v1)) := by
  show (cfg0.win 3).cut (grid0.coords t) ((dats m 0 c).after 3 t) = _
  rw [after_3]
  unfold tileOut
  rw [View.canon_unit_zero hz3]
  simp only [View.ld_unit_zero (S := S1x256x64) hz3, View.ld_unit_zero (S := S1x2048x64) hz3]
  obtain ⟨e00, e01, e02, e10, e11, e12, e20, e21, e22, b0, b1, e32⟩ := idx_facts t
  funext y
  have hy0 : (y 0).val < 1 := (y 0).isLt
  have hy1 : (y 1).val < 256 := (y 1).isLt
  have hy2 : (y 2).val < 64 := (y 2).isLt
  have hy : y = ix3 (0 : Fin 1) (⟨(y 1).val, hy1⟩ : Fin 256) (⟨(y 2).val, hy2⟩ : Fin 64) := by
    funext a; apply Fin.ext
    match a with
    | ⟨0, _⟩ => show (y 0).val = 0; omega
    | ⟨1, _⟩ => rfl
    | ⟨2, _⟩ => rfl
  show k0_pay1 (F := Ideal) (iblk m c 0 t) (iblk m c 1 t) (iblk m c 2 t) y
    = attn3 (V m c main_v0) (V m c main_v1) (((cfg0.win 3).blk t).view.emb y)
  rw [hy]
  refine (tile_at (iblk m c 0 t) (iblk m c 1 t) (iblk m c 2 t) (V m c main_v0) (V m c main_v1)
    (⟨win0_3.index t (0 : Fin 3), by omega⟩ : Fin 16) (⟨win0_3.index t (1 : Fin 3), by omega⟩ : Fin 8) ?_ ?_ ?_ ⟨(y 1).val, hy1⟩ ⟨(y 2).val, hy2⟩).trans ?_
  · intro r k
    show V m c main_v0 (((cfg0.win 0).blk t).view.emb (ix3 (0 : Fin 1) r k)) = _
    refine congrArg (V m c main_v0) (funext fun a => Fin.ext ?_)
    match a with
    | ⟨0, _⟩ => show win0_0.index t (0 : Fin 3) * 1 + 1 * 0 = win0_3.index t (0 : Fin 3); omega
    | ⟨1, _⟩ => show win0_0.index t (1 : Fin 3) * 256 + 1 * r.val = win0_3.index t (1 : Fin 3) * 256 + r.val; omega
    | ⟨2, _⟩ => show win0_0.index t (2 : Fin 3) * 64 + 1 * k.val = k.val; omega
  · intro j k
    show V m c main_v0 (((cfg0.win 1).blk t).view.emb (ix3 (0 : Fin 1) j k)) = _
    refine congrArg (V m c main_v0) (funext fun a => Fin.ext ?_)
    match a with
    | ⟨0, _⟩ => show win0_1.index t (0 : Fin 3) * 1 + 1 * 0 = win0_3.index t (0 : Fin 3); omega
    | ⟨1, _⟩ => show win0_1.index t (1 : Fin 3) * 2048 + 1 * j.val = j.val; omega
    | ⟨2, _⟩ => show win0_1.index t (2 : Fin 3) * 64 + 1 * k.val = k.val; omega
  · intro j k
    show V m c main_v1 (((cfg0.win 2).blk t).view.emb (ix3 (0 : Fin 1) j k)) = _
    refine congrArg (V m c main_v1) (funext fun a => Fin.ext ?_)
    match a with
    | ⟨0, _⟩ => show win0_2.index t (0 : Fin 3) * 1 + 1 * 0 = win0_3.index t (0 : Fin 3); omega
    | ⟨1, _⟩ => show win0_2.index t (1 : Fin 3) * 2048 + 1 * j.val = j.val; omega
    | ⟨2, _⟩ => show win0_2.index t (2 : Fin 3) * 64 + 1 * k.val = k.val; omega
  · refine congrArg (attn3 (V m c main_v0) (V m c main_v1)) (funext fun a => Fin.ext ?_)
    match a with
    | ⟨0, _⟩ => show win0_3.index t (0 : Fin 3) = win0_3.index t (0 : Fin 3) * 1 + 1 * 0; omega
    | ⟨1, _⟩ => show win0_3.index t (1 : Fin 3) * 256 + (y 1).val = win0_3.index t (1 : Fin 3) * 256 + 1 * (y 1).val; omega
    | ⟨2, _⟩ => show (y 2).val = win0_3.index t (2 : Fin 3) * 64 + 1 * (y 2).val; omega

/-- An index of the result array is in point `t`'s tile iff each coordinate is in the tile's range on its axis. -/
theorem mem_blk (t : Fin cfg0.N) (i : S16x2048x64.Idx) :
    i ∈ ((cfg0.win 3).blk t).view.set ↔ ∀ a : Fin 3, win0_3.index t a * S1x256x64.size a ≤ (i a).val ∧ (i a).val < win0_3.index t a * S1x256x64.size a + S1x256x64.size a := by
  show i ∈ ((View.whole main_v2).slice (win0_3.rect t)).set ↔ _
  rw [View.set_slice_whole, Rect.mem_set_unit]
  exact Iff.rfl

/-- The tiles cover the array: row `r` of head `bh` is in tile `r / 256` of head `bh`. -/
theorem cover (i : S16x2048x64.Idx) : ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 64 ≤ (i 2).val ∧ (i 2).val < win0_3.index t (2 : Fin 3) * 64 + 64; omega

/-- THE RESULT ARRAY over merged heads after the region: the attention of the merged arrays as the region finds them. -/
theorem outArr_eq (c : Dev nD) : outArr m c = attn3 (V m c main_v0) (V m c main_v1) :=
  (dats m 0 c).arrAt_eq_of_cover 3 _ (fun t _ => flushed_eq m c t) cover

/-! ## The reshapes around the region -/

/-- The region finds the merged queries and the merged values: the arguments reshaped. -/
theorem V_v0 (c : Dev nD) :
    V m c main_v0 = shapeCast S16x2048x64 (m ((c : Thread nD τ).loc main_arg0)) shapeCasts_S2x8x2048x64_S16x2048x64 := by
  show StableHlo.after hostOps0 (V₀ m c) (Proc.devRef .tc main_v0) = _
  after_results
  rfl
theorem V_v1 (c : Dev nD) :
    V m c main_v1 = shapeCast S16x2048x64 (m ((c : Thread nD τ).loc main_arg1)) shapeCasts_S2x8x2048x64_S16x2048x64 := by
  show StableHlo.after hostOps0 (V₀ m c) (Proc.devRef .tc main_v1) = _
  after_results
  rfl

/-- The final result: the result array over merged heads, reshaped back. -/
theorem V3_v3 (c : Dev nD) :
    V3 m c (Proc.devRef .tc main_v3) = shapeCast S2x8x2048x64 (outArr m c) shapeCasts_S16x2048x64_S2x8x2048x64 := by
  show StableHlo.after hostOps1 (V2 m c) (Proc.devRef .tc main_v3) = _
  after_results
  rw [V2_v2]
  rfl

/-- THE RUN, READ: every weakly fair execution terminates, nothing faults, the result holds the attention of the two argument
    arrays, and both argument arrays end as launched. -/
theorem run : θ_run defs (onTc (τ := τ) (main (F := Ideal))) ⟨m, fun _ => 0, ρ⟩ (fun r => ∀ c : Dev nD,
      r.2.mem ((c.tc : Thread nD τ).loc main_v3) = attn4 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (by
      rw [V3_v3, outArr_eq, V_v0, V_v1]
      exact attn_merged _ _ _ _), (h c).2.1.trans (V_arg0 m c), (h c).2.2.trans (V_arg1 m c)⟩) (run_main m ρ)

end Cert.KernelIdeal.HandValue

end
-- ==== Proof.RefRead.lean ====
/-
  The reference's run, read one operation at a time (the generated modules), gathered for the value proof.
-/
import proofs.«150626_j15702400434263_1_alg».proof.Proof.Gen.ReferenceIdeal.Read
-- ==== Proof.RefIsAttn.lean ====
/-
  The reference program computes the attention function of the specification, entry for entry.

  The reference forms, for every batch b, head h and rows r, j: the row sums of squares ‖q_r‖² (a row sum that starts from
  the zero word), the inner products ⟨q_r, q_j⟩ (a contraction over the 64 columns), the two broadcasts of the row sums
  along j and along r, their sum, the product of the word "two" with the inner product, the difference, the product
  with the word "c", the exponential, and last the contraction of these weights with the value rows over j. Read at an
  index (b, h, r, d) this is Σ_j exp (c · ((‖q_r‖² + ‖q_j‖²) − two · ⟨q_r, q_j⟩)) · v_jd, which is `attn4` literally:
  nothing is reassociated and neither word is evaluated.
-/
import proofs.«150626_j15702400434263_1_alg».proof.Proof.RefRead
import proofs.«150626_j15702400434263_1_alg».proof.Proof.AttnSpec
import Idealize.ShloMosaic.PureOps.Ideal
import Idealize.ShloMosaic.PureOps.Ideal.Laws
import Idealize.ShloMosaic.Lib.ValueIdx

noncomputable section

open scoped BigOperators

namespace Cert.Attn.Ref

open Cert.ReferenceIdeal Cert.ReferenceIdeal.Read Idealize.ShloMosaic Idealize.ShloMosaic.ValueIdx Idealize.SL.Sem

/-- The query and value arrays of the reference: functions of an index (batch, head, row, column). -/
abbrev Arr : Type := (⟨S2x8x2048x64, .f32⟩ : BufTy).Contents (Elt Ideal)

/-! ## The index functions of the generated reading, at coordinates -/

theorem idx_v1_ix (b : Fin 2) (h : Fin 8) (r : Fin 2048) (k : Fin 64) :
    idx_main_v1 (ix3 b h r) k = ix4 b h r k := by
  funext a; match a with | ⟨0, _⟩ => rfl | ⟨1, _⟩ => rfl | ⟨2, _⟩ => rfl | ⟨3, _⟩ => rfl

theorem lidx_v2_ix (b : Fin 2) (h : Fin 8) (r j : Fin 2048) (k : Fin 64) :
    lidx_main_v2 (ix4 b h r j) k = ix4 b h r k := by
  funext a; match a with | ⟨0, _⟩ => rfl | ⟨1, _⟩ => rfl | ⟨2, _⟩ => rfl | ⟨3, _⟩ => rfl

theorem ridx_v2_ix (b : Fin 2) (h : Fin 8) (r j : Fin 2048) (k : Fin 64) :
    ridx_main_v2 (ix4 b h r j) k = ix4 b h j k := by
  funext a; match a with | ⟨0, _⟩ => rfl | ⟨1, _⟩ => rfl | ⟨2, _⟩ => rfl | ⟨3, _⟩ => rfl

theorem idx_v3_ix (b : Fin 2) (h : Fin 8) (r : Fin 2048) (z : Fin 1) :
    idx_main_v3 (ix4 b h r z) = ix3 b h r := by
  funext a; match a with | ⟨0, _⟩ => rfl | ⟨1, _⟩ => rfl | ⟨2, _⟩ => rfl

theorem idx_v4_ix (b : Fin 2) (h : Fin 8) (z : Fin 1) (j : Fin 2048) :
    idx_main_v4 (ix4 b h z j) = ix3 b h j := by
  funext a; match a with | ⟨0, _⟩ => rfl | ⟨1, _⟩ => rfl | ⟨2, _⟩ => rfl

theorem idx_v5_ix (b : Fin 2) (h : Fin 8) (r j : Fin 2048) :
    idx_main_v5 (ix4 b h r j) = ix4 b h r (0 : Fin 1) := by
  funext a; match a with | ⟨0, _⟩ => rfl | ⟨1, _⟩ => rfl | ⟨2, _⟩ => rfl | ⟨3, _⟩ => rfl

theorem idx_v6_ix (b : Fin 2) (h : Fin 8) (r j : Fin 2048) :
    idx_main_v6 (ix4 b h r j) = ix4 b h (0 : Fin 1) j := by
  funext a; match a with | ⟨0, _⟩ => rfl | ⟨1, _⟩ => rfl | ⟨2, _⟩ => rfl | ⟨3, _⟩ => rfl

theorem lidx_v14_ix (b : Fin 2) (h : Fin 8) (r : Fin 2048) (d : Fin 64) (j : Fin 2048) :
    lidx_main_v14 (ix4 b h r d) j = ix4 b h r j := by
  funext a; match a with | ⟨0, _⟩ => rfl | ⟨1, _⟩ => rfl | ⟨2, _⟩ => rfl | ⟨3, _⟩ => rfl

theorem ridx_v14_ix (b : Fin 2) (h : Fin 8) (r : Fin 2048) (d : Fin 64) (j : Fin 2048) :
    ridx_main_v14 (ix4 b h r d) j = ix4 b h j d := by
  funext a; match a with | ⟨0, _⟩ => rfl | ⟨1, _⟩ => rfl | ⟨2, _⟩ => rfl | ⟨3, _⟩ => rfl

/-! ## The stages, at coordinates -/

/-- The row sum of squares: the sum starts from the zero word, which is the number zero. -/
theorem v1_ix (x0 : Arr) (b : Fin 2) (h : Fin 8) (r : Fin 2048) :
    val_main_v1 (F := Ideal) x0 (ix3 b h r) = sqn4 x0 b h r := by
  rw [val_main_v1_apply, val_main_cst_apply, Ideal.ofBits_def, Ideal.ofBits_zero_f32, zero_add]
  unfold sqn4
  refine Finset.sum_congr rfl fun k _ => ?_
  rw [val_main_v0_apply, Ideal.mulf_def, idx_v1_ix]

/-- The inner product of rows r and j. -/
theorem v2_ix (x0 : Arr) (b : Fin 2) (h : Fin 8) (r j : Fin 2048) :
    val_main_v2 (F := Ideal) x0 (ix4 b h r j) = dot4 x0 b h r j := by
  rw [val_main_v2_apply]
  unfold dot4
  refine Finset.sum_congr rfl fun k _ => ?_
  rw [lidx_v2_ix, ridx_v2_ix]

/-- ‖q_r‖² spread along j. -/
theorem v5_ix (x0 : Arr) (b : Fin 2) (h : Fin 8) (r j : Fin 2048) :
    val_main_v5 (F := Ideal) x0 (ix4 b h r j) = sqn4 x0 b h r := by
  rw [val_main_v5_apply, idx_v5_ix, val_main_v3_apply, idx_v3_ix, v1_ix]

/-- ‖q_j‖² spread along r. -/
theorem v6_ix (x0 : Arr) (b : Fin 2) (h : Fin 8) (r j : Fin 2048) :
    val_main_v6 (F := Ideal) x0 (ix4 b h r j) = sqn4 x0 b h j := by
  rw [val_main_v6_apply, idx_v6_ix, val_main_v4_apply, idx_v4_ix, v1_ix]

/-- The weight of value row j in result row r. -/
theorem v13_ix (x0 : Arr) (b : Fin 2) (h : Fin 8) (r j : Fin 2048) :
    val_main_v13 (F := Ideal) x0 (ix4 b h r j) = score4 x0 b h r j := by
  rw [val_main_v13_apply, Ideal.hostUnary_exp_def, val_main_v12_apply, Ideal.mulf_def,
    val_main_v11_apply, val_main_cst_1_apply, Ideal.ofBits_def,
    val_main_v10_apply, Ideal.subf_def, val_main_v7_apply, Ideal.addf_def, v5_ix, v6_ix,
    val_main_v9_apply, Ideal.mulf_def, val_main_v8_apply, val_main_cst_0_apply, Ideal.ofBits_def, v2_ix]
  rfl

/-- The reference is the attention function of the specification. -/
theorem ref_is_attn (x0 x1 : (⟨Cert.ReferenceIdeal.S2x8x2048x64, .f32⟩ : BufTy).Contents (Elt Ideal)) :
    Cert.ReferenceIdeal.Read.val_main_v14 (F := Ideal) x0 x1 = Cert.Attn.attn4 x0 x1 := by
  funext i
  obtain ⟨b, h, r, d, rfl⟩ : ∃ b h r d, i = ix4 b h r d := ⟨_, _, _, _, eq_ix4 i⟩
  rw [val_main_v14_apply]
  show _ = ∑ j : Fin 2048, score4 x0 b h r j * x1 (ix4 b h j d)
  refine Finset.sum_congr rfl fun j _ => ?_
  rw [lidx_v14_ix, ridx_v14_ix, v13_ix]

end Cert.Attn.Ref

end
-- ==== Proof.lean ====
/-
  Softmax-free Gaussian-kernel attention: a Pallas kernel over a 16 × 8 grid (head, tile of 256 query rows) against jnp.

  Both programs compute, for every batch b, head h, row r and column d,
      out[b, h, r, d] = Σ_j exp (c · ((‖q_r‖² + ‖q_j‖²) − 2 · ⟨q_r, q_j⟩)) · v[b, h, j, d],      c = −1/16,
  over the 2048 rows q_j of head (b, h). The kernel merges batch and head into 16 heads, hands each grid point a tile of 256
  query rows together with all of the head's rows as keys and as values, forms the 256 × 2048 weights in one block — two lane
  sums of squares, one matrix product for the inner products — and multiplies them into the values; its changes of float format
  are the identity on the extended reals, and its matrix products into a zero accumulator are plain sums. The reference does the
  same with whole-array operations. On the extended reals the two are ONE function, with no use of finiteness: only the order
  of the terms of finite sums and the tiling differ (`Cert.Attn.attn4`, Proof/AttnSpec.lean).

  The frames: the kernel's run (Proof/AttnLaunch*.lean) — the two reshapes, the region, the reshape back — terminates, faults
  nowhere and writes neither argument; the reference's is its generated run. The idealization rewrote nothing, so what it
  preserves is trivial.
-/
import proofs.«150626_j15702400434263_1_alg».proof.Defs
import proofs.«150626_j15702400434263_1_alg».proof.Proof.Gen.Kernel
import proofs.«150626_j15702400434263_1_alg».proof.Proof.Gen.KernelIdeal
import proofs.«150626_j15702400434263_1_alg».proof.Proof.Gen.ReferenceIdeal
import proofs.«150626_j15702400434263_1_alg».proof.Proof.Gen.Pre_finite_inputs
import proofs.«150626_j15702400434263_1_alg».proof.Proof.AttnLaunchBits
import proofs.«150626_j15702400434263_1_alg».proof.Proof.AttnValue
import proofs.«150626_j15702400434263_1_alg».proof.Proof.RefIsAttn

noncomputable section

namespace Cert.Proof

open Idealize.ShloMosaic Idealize.ShloMosaic.TcCoe Idealize.SL.Sem

/-- The kernel as printed runs to the end, faults nowhere, and leaves both arguments as they were. -/
theorem frame_k : Cert.frame_Kernel := fun m ρ _ => Cert.Kernel.Hand.frame m ρ
/-- So does its reading at the ideal values. -/
theorem frame_ki : Cert.frame_KernelIdeal := fun m ρ _ => Cert.KernelIdeal.Hand.frame m ρ
/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values the kernel's result array ends at the attention of its two arguments (Proof/AttnValue.lean), and the
    reference's at the attention of its own (the generated run, read one operation at a time: Proof/RefIsAttn.lean); the
    arguments agree. -/
theorem algebraic : Cert.algebraic_KernelIdeal_ReferenceIdeal := by
  intro m ρ m' ρ' _ hagree
  refine ⟨fun c => Cert.Attn.attn4 (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.Attn.Ref.ref_is_attn, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
